-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1000x512 : Shape := ⟨2, ![1000, 512]⟩
abbrev S1000 : Shape := ⟨1, ![1000]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_
  bcast_S_S1000 : S_.BroadcastsInDim S1000 (![] : Fin 0 → Fin S1000.rank)
  reducesTo_S1000_S_d0 : S1000.ReducesTo [0] S_

variable [Facts]

def fn {F : FTy → Type} [FloatOps F] (main_arg0 : FVec F S16384x512 .f32) (main_arg1 : FVec F S1000x512 .f32) (main_arg2 : FVec F S1000 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S1000x512 .f32 := Host.absf main_arg1
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  let main_v9 : FVec F S1000 .f32 := Host.absf main_arg2
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  main_v13
-- ==== Kernel.lean ====
abbrev S16384x512 : Shape := ⟨2, ![16384, 512]⟩
abbrev S1000x512 : Shape := ⟨2, ![1000, 512]⟩
abbrev S1000 : Shape := ⟨1, ![1000]⟩
abbrev S_ : Shape := ⟨0, ![]⟩
abbrev S1000x1 : Shape := ⟨2, ![1000, 1]⟩
abbrev S1x1000 : Shape := ⟨2, ![1, 1000]⟩
abbrev S16384x1000 : Shape := ⟨2, ![16384, 1000]⟩
abbrev S2048x512 : Shape := ⟨2, ![2048, 512]⟩
abbrev S2048x1000 : Shape := ⟨2, ![2048, 1000]⟩
abbrev S2048 : Shape := ⟨1, ![2048]⟩
abbrev S2048x1 : Shape := ⟨2, ![2048, 1]⟩

abbrev nBuf : Space → Nat
  | .hbm => 11
  | .vmem => 7
  | .smem => 0
  | _ => 0

abbrev bufTy : (tb : Table) → Fin (tcTables nBuf tb) → BufTy
  | .hbm, ⟨0, _⟩ => ⟨S16384x512, .f32⟩
  | .hbm, ⟨1, _⟩ => ⟨S1000x512, .f32⟩
  | .hbm, ⟨2, _⟩ => ⟨S1000, .f32⟩
  | .hbm, ⟨3, _⟩ => ⟨S1000x512, .f32⟩
  | .hbm, ⟨4, _⟩ => ⟨S_, .f32⟩
  | .hbm, ⟨5, _⟩ => ⟨S1000, .f32⟩
  | .hbm, ⟨6, _⟩ => ⟨S1000x1, .f32⟩
  | .hbm, ⟨7, _⟩ => ⟨S1x1000, .f32⟩
  | .hbm, ⟨8, _⟩ => ⟨S1x1000, .f32⟩
  | .hbm, ⟨9, _⟩ => ⟨S1000x512, .bf16⟩
  | .hbm, ⟨10, _⟩ => ⟨S16384x1000, .f32⟩
  | .local _ .vmem, ⟨0, _⟩ => ⟨S2048x512, .f32⟩
  | .local _ .vmem, ⟨1, _⟩ => ⟨S2048x512, .f32⟩
  | .local _ .vmem, ⟨2, _⟩ => ⟨S1000x512, .bf16⟩
  | .local _ .vmem, ⟨3, _⟩ => ⟨S1x1000, .f32⟩
  | .local _ .vmem, ⟨4, _⟩ => ⟨S1x1000, .f32⟩
  | .local _ .vmem, ⟨5, _⟩ => ⟨S2048x1000, .f32⟩
  | .local _ .vmem, ⟨6, _⟩ => ⟨S2048x1000, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S1000x512_S1000_d1 : S1000x512.ReducesTo [1] S1000
  h_S_ : 0 < S_.numel
  bcast_S1000_S1000x1_0 : S1000.BroadcastsInDim S1000x1 (![0] : Fin 1 → Fin S1000x1.rank)
  shapeCasts_S1000x1_S1x1000 : S1000x1.ShapeCasts S1x1000
  shapeCasts_S1000_S1x1000 : S1000.ShapeCasts S1x1000
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S2048x1_S2048x1000 : S2048x1.Broadcasts S2048x1000
  broadcasts_S1x1000_S2048x1000 : S1x1000.Broadcasts S2048x1000
  inb_S2048x1000_S2048x1000_0_0 : ∀ a, (![0, 0] : Fin 2 → Nat) a + S2048x1000.size a ≤ S2048x1000.size a
  h_S2048x1000 : 0 < S2048x1000.numel
  dot_S2048x512_S1000x512_S2048x1000_1_1_0_0_n_n_wf : DotDims.WF S2048x512 S1000x512 S2048x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S1000x512.size a
  hwx0_1 : ∀ i : grid0.Coords, EltTy.bits .bf16 = 32 ∨ (Rect.block (s := S1000x512) S1000x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1000.size a ≤ S1x1000.size a
  hwx0_3 : ∀ i : grid0.Coords, EltTy.bits .f32 = 32 ∨ (Rect.block (s := S1x1000) S1x1000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1000.size a ≤ S16384x1000.size a
  hwx0_4 : ∀ i : grid0.Coords, EltTy.bits .f32 = 32 ∨ (Rect.block (s := S16384x1000) S2048x1000.size (cc0_transform_4 i) (hinb0_4 i)).WholeWords (EltTy.packing .f32)

variable [Facts₀]

def dot_S2048x512_S1000x512_S2048x1000_1_1_0_0_n_n : DotDims S2048x512 S1000x512 S2048x1000 where
  lhsContracting := [1]
  rhsContracting := [1]
  lhsNonContracting := [0]
  rhsNonContracting := [0]
  lhsBatch := []
  rhsBatch := []
  wf := dot_S2048x512_S1000x512_S2048x1000_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2048x1000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x512 : Shape := ⟨2, ![16384, 512]⟩
abbrev S1000x512 : Shape := ⟨2, ![1000, 512]⟩
abbrev S1000 : Shape := ⟨1, ![1000]⟩
abbrev S_ : Shape := ⟨0, ![]⟩
abbrev S16384 : Shape := ⟨1, ![16384]⟩
abbrev S16384x1 : Shape := ⟨2, ![16384, 1]⟩
abbrev S16384x1000 : Shape := ⟨2, ![16384, 1000]⟩
abbrev S1x1000 : Shape := ⟨2, ![1, 1000]⟩

abbrev nBuf : Space → Nat
  | .hbm => 23
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S1000x512, .f32⟩
  | .hbm, ⟨2, _⟩ => ⟨S1000, .f32⟩
  | .hbm, ⟨3, _⟩ => ⟨S16384x512, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1000x512, .f32⟩
  | .hbm, ⟨8, _⟩ => ⟨S_, .f32⟩
  | .hbm, ⟨9, _⟩ => ⟨S1000, .f32⟩
  | .hbm, ⟨10, _⟩ => ⟨S16384x1000, .f32⟩
  | .hbm, ⟨11, _⟩ => ⟨S1x1000, .f32⟩
  | .hbm, ⟨12, _⟩ => ⟨S16384x1000, .f32⟩
  | .hbm, ⟨13, _⟩ => ⟨S16384x1000, .f32⟩
  | .hbm, ⟨14, _⟩ => ⟨S16384x1000, .f32⟩
  | .hbm, ⟨15, _⟩ => ⟨S_, .f32⟩
  | .hbm, ⟨16, _⟩ => ⟨S16384x1000, .f32⟩
  | .hbm, ⟨17, _⟩ => ⟨S16384x1000, .f32⟩
  | .hbm, ⟨18, _⟩ => ⟨S16384x1000, .f32⟩
  | .hbm, ⟨19, _⟩ => ⟨S16384x1000, .f32⟩
  | .hbm, ⟨20, _⟩ => ⟨S1x1000, .f32⟩
  | .hbm, ⟨21, _⟩ => ⟨S16384x1000, .f32⟩
  | .hbm, ⟨22, _⟩ => ⟨S16384x1000, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S1000x512_S1000_d1 : S1000x512.ReducesTo [1] S1000
  bcast_S1000_S1x1000_1 : S1000.BroadcastsInDim S1x1000 (![1] : Fin 1 → Fin S1x1000.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  bcast_S_S16384x1000 : S_.BroadcastsInDim S16384x1000 (![] : Fin 0 → Fin S16384x1000.rank)
  dot_S16384x512_S1000x512_S16384x1000_1_1_0_0_n_n_wf : DotDims.WF S16384x512 S1000x512 S16384x1000 [1] [1] [0] [0] [] []

variable [Facts₀]

def dot_S16384x512_S1000x512_S16384x1000_1_1_0_0_n_n : DotDims S16384x512 S1000x512 S16384x1000 where
  lhsContracting := [1]
  rhsContracting := [1]
  lhsNonContracting := [0]
  rhsNonContracting := [0]
  lhsBatch := []
  rhsBatch := []
  wf := dot_S16384x512_S1000x512_S16384x1000_1_1_0_0_n_n_wf

class Facts : Prop extends Facts₀ where

variable [Facts]
-- ==== Proof.Spec.lean ====
/-
  The function both programs compute, stated once over the argument arrays.

  For a batch row `b` of `D : [16384, 512]` and a centroid `k` (a row of `W : [1000, 512]`), with
  `g : [1000]` the per-centroid scale, the result entry is

      out (b, k) = -( (Σ_f D(b,f)² + Σ_f W(k,f)²) - 2 · Σ_f D(b,f) · W(k,f) ) · g k

  over the extended reals: minus the squared distance `‖D b - W k‖²` expanded into its three sums, times `g k`.
  The literal `2` is kept as the f32 word both programs print. The two programs differ from this form only in
  where a zero is added to a sum (a reduction's initial value) and in how the sign is taken (`0 - x` against `-x`);
  the two scalar identities below remove those differences. None of them needs finiteness: `0 + x = x` and
  `0 - x = -x` hold for every extended real.
-/
import Idealize.ShloMosaic.Lib.ValueIdx
import Idealize.ShloMosaic.PureOps.Ideal.Laws

noncomputable section

namespace Cert.Centroid

open Idealize.ShloMosaic Idealize.ShloMosaic.ValueIdx

/-- The f32 words of `0` and `2` as extended reals. -/
abbrev zeroW : EReal := Ideal.ofBits .f32 0x00000000#32
abbrev twoW : EReal := Ideal.ofBits .f32 0x40000000#32

/-- `Σ_f D(b,f)²`: the squared norm of batch row `b`. -/
def rowSq (D : FVec Ideal ⟨2, ![16384, 512]⟩ .f32) (b : Fin 16384) : EReal :=
  ∑ f : Fin 512, D (ix2 b f) * D (ix2 b f)

/-- `Σ_f W(k,f)²`: the squared norm of centroid `k`. -/
def centSq (W : FVec Ideal ⟨2, ![1000, 512]⟩ .f32) (k : Fin 1000) : EReal :=
  ∑ f : Fin 512, W (ix2 k f) * W (ix2 k f)

/-- `Σ_f D(b,f) · W(k,f)`: the inner product of batch row `b` with centroid `k`. -/
def cross (D : FVec Ideal ⟨2, ![16384, 512]⟩ .f32) (W : FVec Ideal ⟨2, ![1000, 512]⟩ .f32) (b : Fin 16384) (k : Fin 1000) : EReal :=
  ∑ f : Fin 512, D (ix2 b f) * W (ix2 k f)

/-- One entry of the result: minus the expanded squared distance, scaled by the centroid's `g`. -/
def cell (D : FVec Ideal ⟨2, ![16384, 512]⟩ .f32) (W : FVec Ideal ⟨2, ![1000, 512]⟩ .f32) (g : FVec Ideal ⟨1, ![1000]⟩ .f32)
    (b : Fin 16384) (k : Fin 1000) : EReal :=
  -((rowSq D b + centSq W k) - twoW * cross D W b k) * g (ix1 k)

/-- The whole result array `[16384, 1000]`. -/
def negDistScaled (D : FVec Ideal ⟨2, ![16384, 512]⟩ .f32) (W : FVec Ideal ⟨2, ![1000, 512]⟩ .f32) (g : FVec Ideal ⟨1, ![1000]⟩ .f32) :
    FVec Ideal ⟨2, ![16384, 1000]⟩ .f32 :=
  fun i => cell D W g (i 0) (i 1)

theorem negDistScaled_ix2 (D : FVec Ideal ⟨2, ![16384, 512]⟩ .f32) (W : FVec Ideal ⟨2, ![1000, 512]⟩ .f32) (g : FVec Ideal ⟨1, ![1000]⟩ .f32)
    (b : Fin 16384) (k : Fin 1000) : negDistScaled D W g (ix2 b k) = cell D W g b k := rfl

/-- The kernel's arrangement of one entry: the centroid's squared norm arrives with the reduction's initial zero
    added, and the sign is taken by subtracting from zero. -/
theorem kernel_form (sD sW x γ : EReal) :
    (zeroW - ((sD + (zeroW + sW)) - twoW * x)) * γ = -((sD + sW) - twoW * x) * γ := by
  rw [show zeroW = 0 from Ideal.ofBits_zero_f32, zero_add, zero_sub]

/-- The reference's arrangement: both squared norms arrive with the initial zero added. -/
theorem reference_form (sD sW x γ : EReal) :
    -(((zeroW + sD) + (zeroW + sW)) - twoW * x) * γ = -((sD + sW) - twoW * x) * γ := by
  rw [show zeroW = 0 from Ideal.ofBits_zero_f32, zero_add, zero_add]

end Cert.Centroid

end
-- ==== Proof.RefValue.lean ====
/-
  The reference's result, read one operation at a time, is the specification's array.

  At an entry `(b, k)` the reference's chain of broadcasts reads the row sum of `D ∘ D` at row `b`, the row sum of
  `W ∘ W` at row `k` (each a host sum: the initial zero plus the sum over the 512 features), the contraction of
  `D` and `W` over the feature axis at `(b, k)`, and `g` at `k`. The index functions the broadcasts compose to are
  the coordinate constructors `(b, f)`, `(k, f)` and `k`; what is left is the scalar identity `reference_form`.
-/
import proofs.«176587_j55843164783484_2_alg».proof.Proof.Gen.ReferenceIdeal.Read
import proofs.«176587_j55843164783484_2_alg».proof.Proof.Spec

noncomputable section

namespace Cert.Centroid.Ref

open Idealize.ShloMosaic Idealize.ShloMosaic.ValueIdx Cert.ReferenceIdeal Cert.ReferenceIdeal.Read Cert.Centroid

/-- The squared-norm column of `D`, broadcast to the result and read at `(b, k)`, sums over row `b` of `D`. -/
theorem idx_rowSq (b : Fin 16384) (k : Fin 1000) (f : Fin 512) :
    idx_main_v1 (idx_main_v2 (idx_main_v7 (ix2 b k))) f = ix2 b f :=
  funext fun a => Fin.ext (by match a with | ⟨0, _⟩ => rfl | ⟨1, _⟩ => rfl)

/-- The squared-norm row of `W`, broadcast to the result and read at `(b, k)`, sums over row `k` of `W`. -/
theorem idx_centSq (b : Fin 16384) (k : Fin 1000) (f : Fin 512) :
    idx_main_v4 (idx_main_v6 (idx_main_v8 (ix2 b k))) f = ix2 k f :=
  funext fun a => Fin.ext (by match a with | ⟨0, _⟩ => rfl | ⟨1, _⟩ => rfl)

/-- The contraction at `(b, k)` reads `D` at `(b, f)` … -/
theorem idx_crossL (b : Fin 16384) (k : Fin 1000) (f : Fin 512) : lidx_main_v5 (ix2 b k) f = ix2 b f :=
  funext fun a => Fin.ext (by match a with | ⟨0, _⟩ => rfl | ⟨1, _⟩ => rfl)

/-- … and `W` at `(k, f)`. -/
theorem idx_crossR (b : Fin 16384) (k : Fin 1000) (f : Fin 512) : ridx_main_v5 (ix2 b k) f = ix2 k f :=
  funext fun a => Fin.ext (by match a with | ⟨0, _⟩ => rfl | ⟨1, _⟩ => rfl)

/-- The scale row, broadcast to the result and read at `(b, k)`, is `g` at `k`. -/
theorem idx_scale (b : Fin 16384) (k : Fin 1000) : idx_main_v14 (idx_main_v15 (ix2 b k)) = ix1 k :=
  funext fun a => Fin.ext (by match a with | ⟨0, _⟩ => rfl)

/-- THE REFERENCE IS THE SPECIFICATION: its last stage, as a function of the three argument arrays, is `negDistScaled`. -/
theorem result_eq (x0 : (⟨S16384x512, .f32⟩ : BufTy).Contents (Elt Ideal)) (x1 : (⟨S1000x512, .f32⟩ : BufTy).Contents (Elt Ideal))
    (x2 : (⟨S1000, .f32⟩ : BufTy).Contents (Elt Ideal)) :
    val_main_v16 (F := Ideal) x0 x1 x2 = negDistScaled x0 x1 x2 := by
  funext i
  obtain ⟨b, k, rfl⟩ : ∃ (b : Fin 16384) (k : Fin 1000), i = ix2 b k := ⟨i 0, i 1, eq_ix2 i⟩
  rw [val_main_v16_apply, val_main_v13_apply, val_main_v12_apply, val_main_v9_apply, val_main_v11_apply,
    val_main_v7_apply, val_main_v2_apply, val_main_v1_apply, val_main_v8_apply, val_main_v6_apply, val_main_v4_apply,
    val_main_v10_apply, val_main_cst_1_apply, val_main_v5_apply, val_main_v15_apply, val_main_v14_apply]
  simp only [idx_rowSq, idx_centSq, idx_crossL, idx_crossR, idx_scale, val_main_v0_apply, val_main_v3_apply]
  exact reference_form _ _ _ _

end Cert.Centroid.Ref

end
-- ==== Proof.LibColumn.lean ====
/-
  Column-shaped layout operations read at an index: a column [a, 1] flattened to [a] and back, a column
  broadcast along its rows to [a, b], and a lane reduction of an [a, b] array read at a row as a sum or a
  maximum over the row. Each says which single element (or which row) of the operand an element of the result reads.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnIdx

open Idealize.ShloMosaic ValueIdx

variable {α : Type}

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of an `[a, b]` array (a `multi_reduction <add>` over axis 1 from the zero word), read at row `p`
    at the ideal instance: the sum of the row. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (funext fun ax => Fin.ext (by
      match ax with
      | ⟨0, _⟩ => rfl
      | ⟨1, _⟩ => rfl)))

/-- A lane maximum of an `[a, b]` array (a `multi_reduction <maximumf>` over axis 1 from the word of -∞), read at row
    `p` at the ideal instance: the fold of `max` over the row, from -∞. -/
theorem rowMax_apply {a b : ℕ} (src : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  (Ideal.multiReduction_maximumf_single src _ h hφ hacc (ix1 p)).trans
    (congrArg ((Finset.univ : Finset (Fin b)).fold max (Ideal.ofBits .f32 0xFF800000#32)) (funext fun k =>
      congrArg src (funext fun ax => Fin.ext (by
        match ax with
        | ⟨0, _⟩ => rfl
        | ⟨1, _⟩ => rfl))))

/-- Seven columns `[a, 1]` joined side by side into `[a, 7]`: entry `(p, k)` is column `k`'s entry of row `p`. -/
theorem concat7_apply {a : ℕ} (x0 x1 x2 x3 x4 x5 x6 : (⟨2, ![a, 1]⟩ : Shape).Idx → α)
    (h : Shape.Concatenates (([⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] : List ((s : Shape) × (s.Idx → α))).map (·.1)) ⟨2, ![a, 7]⟩ 1)
    (p : Fin a) (k : Fin 7) :
    concatenate ⟨2, ![a, 7]⟩ 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] h (ix2 p k) = (![x0, x1, x2, x3, x4, x5, x6] k) (ix2 p (0 : Fin 1)) := by
  have hi : ∀ (n : Fin 7) (b : Fin (⟨2, ![a, 1]⟩ : Shape).rank), b.cast (rfl : (2 : ℕ) = 2) ≠ (1 : Fin 2) →
      ((ix2 p (0 : Fin 1) : (⟨2, ![a, 1]⟩ : Shape).Idx) b).val = ((ix2 p n : (⟨2, ![a, 7]⟩ : Shape).Idx) (b.cast rfl)).val := by
    intro n b hb
    match b with
    | ⟨0, _⟩ => rfl
    | ⟨1, _⟩ => exact absurd rfl hb
  match k with
  | ⟨0, _⟩ => exact concatenate_apply_piece 1 _ h _ 0 (by simp) _ x0 rfl rfl 0 rfl (ix2 p (0 : Fin 1)) (hi 0) rfl
  | ⟨1, _⟩ => exact concatenate_apply_piece 1 _ h _ 1 (by simp) _ x1 rfl rfl 1 rfl (ix2 p (0 : Fin 1)) (hi 1) rfl
  | ⟨2, _⟩ => exact concatenate_apply_piece 1 _ h _ 2 (by simp) _ x2 rfl rfl 2 rfl (ix2 p (0 : Fin 1)) (hi 2) rfl
  | ⟨3, _⟩ => exact concatenate_apply_piece 1 _ h _ 3 (by simp) _ x3 rfl rfl 3 rfl (ix2 p (0 : Fin 1)) (hi 3) rfl
  | ⟨4, _⟩ => exact concatenate_apply_piece 1 _ h _ 4 (by simp) _ x4 rfl rfl 4 rfl (ix2 p (0 : Fin 1)) (hi 4) rfl
  | ⟨5, _⟩ => exact concatenate_apply_piece 1 _ h _ 5 (by simp) _ x5 rfl rfl 5 rfl (ix2 p (0 : Fin 1)) (hi 5) rfl
  | ⟨6, _⟩ => exact concatenate_apply_piece 1 _ h _ 6 (by simp) _ x6 rfl rfl 6 rfl (ix2 p (0 : Fin 1)) (hi 6) rfl

end Idealize.ShloMosaic.ColumnIdx

end
-- ==== Proof.Payload.lean ====
/-
  The kernel body's stored value, read at one entry of the output block.

  The body holds a block `v0 : [2048, 512]` of rows of `D`, the whole `v5 : [1000, 512]` of centroids, and two rows
  `v8, v18 : [1, 1000]` (the centroids' squared norms and the scales). At entry `(r, q)` of its `[2048, 1000]` result:
  the lane sum of `v0 ∘ v0`, turned into a column and broadcast along the row, reads `Σ_f v0(r,f)²`; each `[1, 1000]` row
  broadcast down the block reads its entry `q`; the matrix product into a zero accumulator, contracting the feature
  axis of both operands, reads `Σ_f v0(r,f) · v5(q,f)` (rounding `v0` to the narrow format is the identity on
  extended reals). The pointwise operations around them then give
  `(0 - ((Σ v0² + v8 q) - 2 · Σ v0 · v5)) · v18 q`.
-/
import proofs.«176587_j55843164783484_2_alg».proof.Proof.Gen.KernelIdeal.Skeleton
import proofs.«176587_j55843164783484_2_alg».proof.Proof.LibColumn
import proofs.«176587_j55843164783484_2_alg».proof.Proof.Spec
import Idealize.ShloMosaic.Lib.ValueLayout

noncomputable section

namespace Cert.Centroid.Body

open Idealize.ShloMosaic Idealize.ShloMosaic.ValueIdx Idealize.ShloMosaic.ColumnIdx
open Cert.KernelIdeal Cert.KernelIdeal.Gen Cert.Centroid

/-- The lane sum of the squared block, as a column broadcast along the row: at `(r, q)` it is `Σ_f v0(r,f)²`. -/
theorem sqColumn_apply (v0 : FVec Ideal S2048x512 .f32) (r : Fin 2048) (q : Fin 1000) :
    broadcastTo S2048x1000 (shapeCast S2048x1
        (multiReduction .add [1] S2048 (mulf v0 v0) 0x00000000#32 reduces_S2048x512_S2048 (.inl rfl) rfl)
        shapeCasts_S2048_S2048x1) broadcasts_S2048x1_S2048x1000 (ix2 r q)
      = ∑ f : Fin 512, v0 (ix2 r f) * v0 (ix2 r f) :=
  (broadcastTo_a1_ab_apply _ broadcasts_S2048x1_S2048x1000 r q).trans
    ((shapeCast_a_a1_apply _ shapeCasts_S2048_S2048x1 r (0 : Fin 1)).trans
      (rowSum_apply (mulf v0 v0) reduces_S2048x512_S2048 (.inl rfl) rfl r))

/-- A `[1, 1000]` row (recast to its own shape) broadcast down the block: at `(r, q)` it is the row's entry `q`. -/
theorem rowBroadcast_apply (v : FVec Ideal S1x1000 .f32) (r : Fin 2048) (q : Fin 1000) :
    broadcastTo S2048x1000 (shapeCast S1x1000 v shapeCasts_S1x1000_S1x1000) broadcasts_S1x1000_S2048x1000 (ix2 r q)
      = v (ix2 (0 : Fin 1) q) :=
  (broadcastTo_1b_ab_apply _ broadcasts_S1x1000_S2048x1000 r q).trans
    (congrFun (shapeCast_self v shapeCasts_S1x1000_S1x1000) _)

local notation "dotD" => dot_S2048x512_S1000x512_S2048x1000_1_1_0_0_n_n

theorem lhs_coord0 (i : S2048x1000.Idx) (k : (dotD).contr.Idx) : ((dotD).lhsIdx i k 0).val = (i 0).val := by
  unfold DotDims.lhsIdx
  rw [dif_neg (show ¬(0 : Fin S2048x512.rank) ∈ (dotD).lhsBatch by decide),
    dif_pos (show (0 : Fin S2048x512.rank) ∈ (dotD).lhsNonContracting by decide)]
  rfl
theorem lhs_coord1 (i : S2048x1000.Idx) (k : (dotD).contr.Idx) : ((dotD).lhsIdx i k 1).val = (k ⟨0, by decide⟩).val :=
  (dotD).lhsIdx_val_of_single rfl i k
theorem rhs_coord0 (i : S2048x1000.Idx) (k : (dotD).contr.Idx) : ((dotD).rhsIdx i k 0).val = (i 1).val := by
  unfold DotDims.rhsIdx
  rw [dif_neg (show ¬(0 : Fin S1000x512.rank) ∈ (dotD).rhsBatch by decide),
    dif_pos (show (0 : Fin S1000x512.rank) ∈ (dotD).rhsNonContracting by decide)]
  rfl
theorem rhs_coord1 (i : S2048x1000.Idx) (k : (dotD).contr.Idx) : ((dotD).rhsIdx i k 1).val = (k ⟨0, by decide⟩).val :=
  (dotD).rhsIdx_val_of_single rfl i k

/-- The matrix product of the block with the centroids, into a zero accumulator, at `(r, q)`: the feature axis of both
    operands is contracted, so the entry is `Σ_f v0(r,f) · v5(q,f)`. -/
theorem product_apply (v0 : FVec Ideal S2048x512 .f32) (v5 : FVec Ideal S1000x512 .bf16) (r : Fin 2048) (q : Fin 1000) :
    matmul dotD none (truncf .bf16 v0 bitsLt_bf16_f32) (shapeCast S1000x512 v5 shapeCasts_S1000x512_S1000x512)
        (constant S2048x1000 .f32 0x00000000#32) (ix2 r q)
      = ∑ f : Fin 512, v0 (ix2 r f) * v5 (ix2 q f) := by
  rw [shapeCast_self]
  simp only [matmul]
  rw [Ideal.matmul_constant_zero_apply, ← Equiv.sum_comp (contrEquiv1 dotD 512 rfl rfl).symm]
  refine Finset.sum_congr rfl fun f _ => ?_
  have hf := contrEquiv1_symm_val dotD 512 rfl rfl f
  have el : (dotD).lhsIdx (ix2 r q) ((contrEquiv1 dotD 512 rfl rfl).symm f) = ix2 r f := funext fun a => Fin.ext (by
    match a with
    | ⟨0, _⟩ => exact lhs_coord0 _ _
    | ⟨1, _⟩ => exact (lhs_coord1 _ _).trans hf)
  have er : (dotD).rhsIdx (ix2 r q) ((contrEquiv1 dotD 512 rfl rfl).symm f) = ix2 q f := funext fun a => Fin.ext (by
    match a with
    | ⟨0, _⟩ => exact rhs_coord0 _ _
    | ⟨1, _⟩ => exact (rhs_coord1 _ _).trans hf)
  rw [el, er]
  rfl

/-- THE STORED VALUE AT AN ENTRY. -/
theorem stored_apply (v0 : Vec Ideal S2048x512 .f32) (v5 : Vec Ideal S1000x512 .bf16) (v8 v18 : Vec Ideal S1x1000 .f32)
    (r : Fin 2048) (q : Fin 1000) :
    k0_pay1 (F := Ideal) v0 v5 v8 v18 (ix2 r q)
      = (zeroW - (((∑ f : Fin 512, v0 (ix2 r f) * v0 (ix2 r f)) + v8 (ix2 (0 : Fin 1) q))
          - twoW * ∑ f : Fin 512, v0 (ix2 r f) * v5 (ix2 q f))) * v18 (ix2 (0 : Fin 1) q) := by
  unfold k0_pay1
  exact congrArg₂ (· * ·)
    (congrArg (zeroW - ·)
      (congrArg₂ (· - ·)
        (congrArg₂ (· + ·) (sqColumn_apply v0 r q) (rowBroadcast_apply v8 r q))
        (congrArg (twoW * ·) (product_apply v0 v5 r q))))
    (rowBroadcast_apply v18 r q)

end Cert.Centroid.Body

end
-- ==== Proof.HostPrefix.lean ====
/-
  The three arrays the host prepares before the kernel is launched, as functions of the arguments.

  Besides `D` itself the kernel's windows stage: the centroids `W` rounded to the narrow format (on extended reals, `W`
  itself); the row `[1, 1000]` of the centroids' squared norms, obtained as a host sum over the feature axis (the
  initial zero plus `Σ_f W(k,f)²`), broadcast to a column `[1000, 1]` and reshaped to a row; and the scales `g` reshaped
  to a row `[1, 1000]`. Each is first named as the composed term of the host operations, then read at an index.
-/
import proofs.«176587_j55843164783484_2_alg».proof.Proof.Gen.KernelIdeal.Frame
import proofs.«176587_j55843164783484_2_alg».proof.Proof.Spec
import Idealize.ShloMosaic.Lib.ValueLayout
import Idealize.ShloMosaic.Lib.StableHlo.Run

noncomputable section

namespace Cert.Centroid.Prefix

open Idealize.ShloMosaic Idealize.ShloMosaic.TcCoe Idealize.ShloMosaic.ValueIdx Idealize.SL.Sem Idealize.ShloMosaic.StableHlo
open Cert.KernelIdeal Cert.KernelIdeal.Gen Cert.Centroid

/-! ## The host operations' terms read at an index -/

/-- The row of squared norms at `(0, k)`: the reshape reads the column at `(k, 0)`, the column reads the host sum at `k`,
    and the host sum over the feature axis is the initial zero plus `Σ_f W(k,f)²`. -/
theorem sqNormRow_apply (W : FVec Ideal S1000x512 .f32) (k : Fin 1000) :
    shapeCast S1x1000 (broadcastInDim S1000x1 ![0] bcast_S1000_S1000x1_0
        (Host.reduceAdd (mulf W W) (constant S_ .f32 0x00000000#32) reducesTo_S1000x512_S1000_d1 h_S_))
        shapeCasts_S1000x1_S1x1000 (ix2 (0 : Fin 1) k)
      = zeroW + ∑ f : Fin 512, W (ix2 k f) * W (ix2 k f) := by
  generalize hy : mulf W W = y
  refine (shapeCast_apply _ shapeCasts_S1000x1_S1x1000 (ix2 (0 : Fin 1) k) (ix2 k (0 : Fin 1)) (by
    rw [Shape.rowMajor_val_two, Shape.rowMajor_val_two]
    show k.val * 1 + 0 = 0 * 1000 + k.val
    omega)).trans ?_
  refine (broadcastInDim_apply _ bcast_S1000_S1000x1_0 _ (ix2 k (0 : Fin 1)) (ix1 k) (fun a => match a with
    | ⟨0, _⟩ => by show k.val = if (1000 : Nat) = 1 then 0 else k.val; rw [if_neg (by decide)])).trans ?_
  simp only [Host.reduceAdd, Ideal.hostReduceAdd_def]
  rw [Ideal.hostReduceAdd_single reducesTo_S1000x512_S1000_d1 (by decide)]
  refine congrArg₂ (· + ·) rfl (Finset.sum_congr rfl fun f _ => ?_)
  subst hy
  exact congrArg (mulf W W) (funext fun a => Fin.ext (by match a with | ⟨0, _⟩ => rfl | ⟨1, _⟩ => rfl))

/-- The scales reshaped to a row, at `(0, k)`: `g` at `k`. -/
theorem scaleRow_apply (g : FVec Ideal S1000 .f32) (k : Fin 1000) :
    shapeCast S1x1000 g shapeCasts_S1000_S1x1000 (ix2 (0 : Fin 1) k) = g (ix1 k) :=
  shapeCast_a_1a_apply g shapeCasts_S1000_S1x1000 (0 : Fin 1) k

/-! ## The arrays as the region finds them -/

variable (m : (ℓ : Loc nD τ sig) → Buf (Elt Ideal) ℓ)

/-- The staged centroids: `W` through the narrowing format change. -/
theorem V_centroids (c : Dev nD) :
    @Eq (FVec Ideal S1000x512 .bf16) (V m c main_v5)
      (truncf (F := Ideal) (s := S1000x512) (φ := .f32) .bf16 (m ((c : Thread nD τ).loc main_arg1)) bitsLt_bf16_f32) := by
  dsimp only [Gen.V, Gen.hostOps0]
  after_results

/-- The staged row of squared norms. -/
theorem V_sqNormRow (c : Dev nD) :
    @Eq (FVec Ideal S1x1000 .f32) (V m c main_v3)
      (shapeCast S1x1000 (broadcastInDim S1000x1 ![0] bcast_S1000_S1000x1_0
          (Host.reduceAdd (F := Ideal) (mulf (F := Ideal) (s := S1000x512) (φ := .f32) (m ((c : Thread nD τ).loc main_arg1)) (m ((c : Thread nD τ).loc main_arg1)))
            (constant S_ .f32 0x00000000#32) reducesTo_S1000x512_S1000_d1 h_S_))
          shapeCasts_S1000x1_S1x1000) := by
  dsimp only [Gen.V, Gen.hostOps0]
  after_results
  rfl

/-- The staged row of scales. -/
theorem V_scaleRow (c : Dev nD) :
    @Eq (FVec Ideal S1x1000 .f32) (V m c main_v4)
      (shapeCast S1x1000 (m ((c : Thread nD τ).loc main_arg2) : FVec Ideal S1000 .f32) shapeCasts_S1000_S1x1000) := by
  dsimp only [Gen.V, Gen.hostOps0]
  after_results
  rfl

end Cert.Centroid.Prefix

end
-- ==== Proof.Blocks.lean ====
/-
  From the kernel's blocks to its whole result array.

  The grid has 8 points. At point `t` the kernel sees rows `2048·t … 2048·t + 2047` of `D` (window 0), the whole of the
  staged centroids, squared-norm row and scale row (windows 1–3, the same block at every point), and writes rows
  `2048·t … 2048·t + 2047` of the `[16384, 1000]` result (window 4). Entry `(r, q)` of the block written at `t` is the
  stored value of the body at `(r, q)`, which by the block reads is entry `(2048·t + r, q)` of the specification's array;
  the 8 row blocks tile the result, so after the run the result array is the specification's array.
-/
import proofs.«176587_j55843164783484_2_alg».proof.Proof.Gen.KernelIdeal.Value
import proofs.«176587_j55843164783484_2_alg».proof.Proof.Payload
import proofs.«176587_j55843164783484_2_alg».proof.Proof.HostPrefix
import proofs.«176587_j55843164783484_2_alg».proof.Proof.Spec

noncomputable section

namespace Cert.Centroid.Kernel

open Idealize.ShloMosaic Idealize.ShloMosaic.TcCoe Idealize.ShloMosaic.ValueIdx Idealize.SL.Sem
open Idealize.ShloMosaic.Pipeline (Dat)
open Cert.KernelIdeal Cert.KernelIdeal.Gen Cert.Centroid

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the grid: the `D` window and the result window are at block row `t`, column block 0;
    the three resident windows stay at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The specification's array of the launch contents of the three arguments. -/
abbrev result (c : Dev nD) : FVec Ideal S16384x1000 .f32 :=
  negDistScaled (m ((c : Thread nD τ).loc main_arg0)) (m ((c : Thread nD τ).loc main_arg1)) (m ((c : Thread nD τ).loc main_arg2))

/-! ## The input blocks at a point -/

/-- Window 0's block at point `t`, entry `(r, f)`: `D` at row `2048·t + r`. -/
theorem rows_block (c : Dev nD) (t : Fin cfg0.N) (r : Fin 2048) (f : Fin 512) (b : Fin 16384) (hb : b.val = t.val * 2048 + r.val) :
    (iblk m c 0 t : Vec Ideal S2048x512 .f32) (ix2 r f) = (m ((c : Thread nD τ).loc main_arg0) : Vec Ideal S16384x512 .f32) (ix2 b f) := by
  obtain ⟨e00, e01, -⟩ := index_facts t
  unfold iblk
  rw [View.read_apply]
  show V m c main_arg0 _ = _
  rw [V_main_arg0]
  refine congrArg _ (funext fun a => Fin.ext ?_)
  match a with
  | ⟨0, _⟩ => show win0_0.index t (0 : Fin 2) * 2048 + 1 * r.val = b.val; omega
  | ⟨1, _⟩ => show win0_0.index t (1 : Fin 2) * 512 + 1 * f.val = f.val; omega

/-- Window 1's block, entry `(q, f)`: the centroid `W(q, f)`. -/
theorem centroids_block (c : Dev nD) (t : Fin cfg0.N) (q : Fin 1000) (f : Fin 512) :
    (iblk m c 1 t : Vec Ideal S1000x512 .bf16) (ix2 q f) = (m ((c : Thread nD τ).loc main_arg1) : Vec Ideal S1000x512 .f32) (ix2 q f) := by
  obtain ⟨-, -, e10, e11, -⟩ := index_facts t
  unfold iblk
  rw [View.read_apply]
  show (V m c main_v5 : FVec Ideal S1000x512 .bf16) _ = _
  rw [Prefix.V_centroids]
  show (m ((c : Thread nD τ).loc main_arg1) : Vec Ideal S1000x512 .f32) _ = _
  refine congrArg _ (funext fun a => Fin.ext ?_)
  match a with
  | ⟨0, _⟩ => show win0_1.index t (0 : Fin 2) * 1000 + 1 * q.val = q.val; omega
  | ⟨1, _⟩ => show win0_1.index t (1 : Fin 2) * 512 + 1 * f.val = f.val; omega

/-- Window 2's block, entry `(0, q)`: the initial zero plus centroid `q`'s squared norm. -/
theorem sqNorm_block (c : Dev nD) (t : Fin cfg0.N) (q : Fin 1000) :
    (iblk m c 2 t : Vec Ideal S1x1000 .f32) (ix2 (0 : Fin 1) q) = zeroW + centSq (m ((c : Thread nD τ).loc main_arg1)) q := by
  obtain ⟨-, -, -, -, e20, e21, -⟩ := index_facts t
  unfold iblk
  rw [View.read_apply]
  show (V m c main_v3 : FVec Ideal S1x1000 .f32) _ = _
  rw [Prefix.V_sqNormRow]
  have hidx : ((cfg0.win 2).blk t).view.emb (ix2 (0 : Fin 1) q) = (ix2 (0 : Fin 1) q : S1x1000.Idx) := funext fun a => Fin.ext (by
    match a with
    | ⟨0, _⟩ => show win0_2.index t (0 : Fin 2) * 1 + 1 * 0 = 0; omega
    | ⟨1, _⟩ => show win0_2.index t (1 : Fin 2) * 1000 + 1 * q.val = q.val; omega)
  rw [hidx]
  exact Prefix.sqNormRow_apply _ q

/-- Window 3's block, entry `(0, q)`: the scale `g q`. -/
theorem scale_block (c : Dev nD) (t : Fin cfg0.N) (q : Fin 1000) :
    (iblk m c 3 t : Vec Ideal S1x1000 .f32) (ix2 (0 : Fin 1) q) = (m ((c : Thread nD τ).loc main_arg2) : Vec Ideal S1000 .f32) (ix1 q) := by
  obtain ⟨-, -, -, -, -, -, e30, e31, -⟩ := index_facts t
  unfold iblk
  rw [View.read_apply]
  show (V m c main_v4 : FVec Ideal S1x1000 .f32) _ = _
  rw [Prefix.V_scaleRow]
  have hidx : ((cfg0.win 3).blk t).view.emb (ix2 (0 : Fin 1) q) = (ix2 (0 : Fin 1) q : S1x1000.Idx) := funext fun a => Fin.ext (by
    match a with
    | ⟨0, _⟩ => show win0_3.index t (0 : Fin 2) * 1 + 1 * 0 = 0; omega
    | ⟨1, _⟩ => show win0_3.index t (1 : Fin 2) * 1000 + 1 * q.val = q.val; omega)
  rw [hidx]
  exact Prefix.scaleRow_apply _ q

/-! ## One entry of a written block -/

/-- For blocks that read as above, the body's stored value at `(r, q)` is the specification's entry `(b, q)`. -/
theorem entry_eq (x0 : Vec Ideal S2048x512 .f32) (x1 : Vec Ideal S1000x512 .bf16) (x2 x3 : Vec Ideal S1x1000 .f32)
    (D : FVec Ideal S16384x512 .f32) (W : FVec Ideal S1000x512 .f32) (g : FVec Ideal S1000 .f32)
    (y : S2048x1000.Idx) (r : Fin 2048) (q : Fin 1000) (hy : y = ix2 r q) (b : Fin 16384)
    (h0 : ∀ f : Fin 512, x0 (ix2 r f) = D (ix2 b f)) (h1 : ∀ f : Fin 512, x1 (ix2 q f) = W (ix2 q f))
    (h2 : x2 (ix2 (0 : Fin 1) q) = zeroW + centSq W q) (h3 : x3 (ix2 (0 : Fin 1) q) = g (ix1 q)) :
    k0_pay1 (F := Ideal) x0 x1 x2 x3 y = cell D W g b q := by
  subst hy
  rw [Body.stored_apply, h2, h3]
  simp only [h0, h1]
  exact kernel_form _ _ _ _

/-! ## What a point writes back, and the whole array -/

/-- WHAT POINT `t` WRITES BACK is block `t` of the specification's array. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero zero_offsets]
  simp only [View.ld_unit_zero (S := S2048x512) zero_offsets, View.ld_unit_zero (S := S1000x512) zero_offsets,
    View.ld_unit_zero (S := S1x1000) zero_offsets]
  obtain ⟨-, -, -, -, -, -, -, -, e40, e41⟩ := index_facts t
  have ht : t.val < 8 := by
    have h : t.val < grid0.N := t.isLt
    have hN : grid0.N = 8 := N_0
    omega
  funext j
  have hj0 : (j 0).val < 2048 := (j 0).isLt
  have hj1 : (j 1).val < 1000 := (j 1).isLt
  show k0_pay1 (F := Ideal) (iblk m c 0 t) (iblk m c 1 t) (iblk m c 2 t) (iblk m c 3 t) j
    = result m c (((cfg0.win 4).blk t).view.emb j)
  refine (entry_eq (iblk m c 0 t) (iblk m c 1 t) (iblk m c 2 t) (iblk m c 3 t)
    (m ((c : Thread nD τ).loc main_arg0)) (m ((c : Thread nD τ).loc main_arg1)) (m ((c : Thread nD τ).loc main_arg2))
    j ⟨(j 0).val, hj0⟩ ⟨(j 1).val, hj1⟩ (funext fun a => by match a with | ⟨0, _⟩ => rfl | ⟨1, _⟩ => rfl)
    ⟨t.val * 2048 + (j 0).val, by omega⟩
    (fun f => rows_block m c t _ f _ rfl) (fun f => centroids_block m c t _ f)
    (sqNorm_block m c t _) (scale_block m c t _)).trans ?_
  show cell _ _ _ _ _ = cell _ _ _ ((((cfg0.win 4).blk t).view.emb j) 0) ((((cfg0.win 4).blk t).view.emb j) 1)
  have hb : (⟨t.val * 2048 + (j 0).val, by omega⟩ : Fin 16384) = (((cfg0.win 4).blk t).view.emb j) 0 := Fin.ext (by
    show t.val * 2048 + (j 0).val = win0_4.index t (0 : Fin 2) * 2048 + 1 * (j 0).val; omega)
  have hk : (⟨(j 1).val, hj1⟩ : Fin 1000) = (((cfg0.win 4).blk t).view.emb j) 1 := Fin.ext (by
    show (j 1).val = win0_4.index t (1 : Fin 2) * 1000 + 1 * (j 1).val; omega)
  rw [hb, hk]

/-- An index of the result array is in point `t`'s block iff each coordinate is in the block's range on its axis. -/
theorem mem_block (t : Fin cfg0.N) (i : S16384x1000.Idx) :
    i ∈ ((cfg0.win 4).blk t).view.set ↔ ∀ a : Fin 2, win0_4.index t a * S2048x1000.size a ≤ (i a).val
      ∧ (i a).val < win0_4.index t a * S2048x1000.size a + S2048x1000.size a := by
  show i ∈ ((View.whole main_v6).slice (win0_4.rect t)).set ↔ _
  rw [View.set_slice_whole, Rect.mem_set_unit]
  exact Iff.rfl

/-- THE BLOCKS TILE THE RESULT: row `ρ` of the result is in the block of point `ρ / 2048`. -/
theorem covered (i : S16384x1000.Idx) :
    ∃ t : Fin cfg0.N, (cfg0.win 4).flush t = true ∧ i ∈ ((cfg0.win 4).blk t).view.set := by
  have hi0 : (i 0).val < 16384 := (i 0).isLt
  have hi1 : (i 1).val < 1000 := (i 1).isLt
  have hN : grid0.N = 8 := N_0
  have hlt : (i 0).val / 2048 < cfg0.N := by show _ < grid0.N; omega
  refine ⟨⟨(i 0).val / 2048, hlt⟩, flush0_4 _, ?_⟩
  rw [mem_block]
  obtain ⟨-, -, -, -, -, -, -, -, e40, e41⟩ := index_facts ⟨(i 0).val / 2048, hlt⟩
  have e40' : win0_4.index ⟨(i 0).val / 2048, hlt⟩ (0 : Fin 2) = (i 0).val / 2048 := e40
  intro a
  match a with
  | ⟨0, _⟩ =>
    show win0_4.index ⟨(i 0).val / 2048, _⟩ (0 : Fin 2) * 2048 ≤ (i 0).val
      ∧ (i 0).val < win0_4.index ⟨(i 0).val / 2048, _⟩ (0 : Fin 2) * 2048 + 2048
    rw [e40']; omega
  | ⟨1, _⟩ =>
    show win0_4.index ⟨(i 0).val / 2048, _⟩ (1 : Fin 2) * 1000 ≤ (i 1).val
      ∧ (i 1).val < win0_4.index ⟨(i 0).val / 2048, _⟩ (1 : Fin 2) * 1000 + 1000
    rw [e41]; omega

/-- THE RESULT ARRAY after the run is the specification's array. -/
theorem final (c : Dev nD) : (dats m 0 c).arrAt 4 cfg0.N = result m c :=
  (dats m 0 c).arrAt_eq_of_cover 4 (result m c) (fun t _ => flushed_eq m c t) covered

/-- The kernel's run, read: the result array at the specification's array of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.Centroid.Kernel

end
-- ==== Proof.lean ====
/-
  The scaled negated squared distance to centroids: a kernel against its array reference, equal over the extended reals.

  Both programs compute, for a batch row `b` of `D : [16384, 512]`, a centroid `k` (a row of `W : [1000, 512]`) and a scale
  `g : [1000]`,

      out (b, k) = -( (Σ_f D(b,f)² + Σ_f W(k,f)²) - 2 · Σ_f D(b,f) · W(k,f) ) · g k.

  The kernel walks 8 blocks of 2048 batch rows; per block it takes the lane sum of the squared rows, multiplies the block
  with the (narrow-format) centroids on the matrix unit, adds the row of centroid norms the host prepared, and takes the sign as
  `0 - x`. The reference takes the same three sums over whole arrays and negates. On extended reals a change of float
  format is the identity, a matrix product into a zero accumulator and a host contraction are the same sum, and `0 + x = x`,
  `0 - x = -x` hold for every value, so the two results agree entry by entry; no finiteness of the inputs is used.

  Modules: `Spec` (the function and the two scalar identities), `RefValue` (the reference's last stage is that function),
  `Payload` (the kernel body's stored value at an entry), `HostPrefix` (the arrays the host stages for the kernel),
  `Blocks` (each written block is a block of the function, and the blocks tile the result). The frames of the two kernel
  programs and the runs of both idealized programs are the generated modules'.
-/
import proofs.«176587_j55843164783484_2_alg».proof.Defs
import proofs.«176587_j55843164783484_2_alg».proof.Proof.Gen.Kernel
import proofs.«176587_j55843164783484_2_alg».proof.Proof.Gen.Kernel.Skeleton
import proofs.«176587_j55843164783484_2_alg».proof.Proof.Gen.Kernel.Launch
import proofs.«176587_j55843164783484_2_alg».proof.Proof.Gen.Kernel.Points
import proofs.«176587_j55843164783484_2_alg».proof.Proof.Gen.Kernel.Frame
import proofs.«176587_j55843164783484_2_alg».proof.Proof.Gen.KernelIdeal
import proofs.«176587_j55843164783484_2_alg».proof.Proof.Gen.KernelIdeal.Skeleton
import proofs.«176587_j55843164783484_2_alg».proof.Proof.Gen.KernelIdeal.Launch
import proofs.«176587_j55843164783484_2_alg».proof.Proof.Gen.KernelIdeal.Points
import proofs.«176587_j55843164783484_2_alg».proof.Proof.Gen.KernelIdeal.Frame
import proofs.«176587_j55843164783484_2_alg».proof.Proof.Gen.ReferenceIdeal
import proofs.«176587_j55843164783484_2_alg».proof.Proof.Gen.Pre_finite_inputs
import proofs.«176587_j55843164783484_2_alg».proof.Proof.Gen.KernelIdeal.Value
import proofs.«176587_j55843164783484_2_alg».proof.Proof.Gen.ReferenceIdeal.Run
import proofs.«176587_j55843164783484_2_alg».proof.Proof.Gen.ReferenceIdeal.Read
import proofs.«176587_j55843164783484_2_alg».proof.Proof.RefValue
import proofs.«176587_j55843164783484_2_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Run from memories that agree on `D`, `W` and `g`, the idealized kernel ends with its result array at the
    specification's array (`Centroid.Kernel.run`), and the reference's last stage is the same array
    (`Centroid.Ref.result_eq`). -/
theorem algebraic : Cert.algebraic_KernelIdeal_ReferenceIdeal := by
  intro m ρ m' ρ' _ hagree
  refine ⟨fun c => Cert.Centroid.Kernel.result m c, Cert.Centroid.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.Centroid.Ref.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
